-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .bf16⟩
  | .hbm, ⟨4, _⟩ => ⟨S4096x4096, .bf16⟩
  | .hbm, ⟨5, _⟩ => ⟨S1x4096, .f32⟩
  | .hbm, ⟨6, _⟩ => ⟨S8192x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.LibBlockSums.lean ====
/-
  Finite sums regrouped into blocks. A sum over the m·n indices 0, …, m·n − 1 is the sum over the m blocks of n
  consecutive indices of the sums inside each block: index i·n + j is entry j of block i. Nothing is asked of the
  summands beyond commutative addition, so the regrouping holds on the extended reals without any finiteness.
-/
import Mathlib

noncomputable section

namespace BlockSums

open Finset

/-- A sum over Fin N, N = m·n, regrouped into m blocks of n: g i j is any naming of index i·n + j. -/
theorem sum_blocks {M : Type*} [AddCommMonoid M] {m n N : ℕ} (hN : N = m * n) (g : Fin m → Fin n → Fin N)
    (hg : ∀ i j, (g i j).val = i.val * n + j.val) (f : Fin N → M) :
    ∑ r, f r = ∑ i : Fin m, ∑ j : Fin n, f (g i j) := by
  subst hN
  have hp : ∀ p : Fin m × Fin n, g p.1 p.2 = finProdFinEquiv p := fun p =>
    Fin.ext (by rw [hg, finProdFinEquiv_apply_val, Nat.mul_comm, Nat.add_comm])
  calc ∑ r, f r = ∑ p : Fin m × Fin n, f (finProdFinEquiv p) := (Equiv.sum_comp finProdFinEquiv f).symm
    _ = ∑ p : Fin m × Fin n, f (g p.1 p.2) := by simp only [hp]
    _ = ∑ i : Fin m, ∑ j : Fin n, f (g i j) := Fintype.sum_prod_type _

end BlockSums

end
-- ==== Proof.Spec.lean ====
/-
  The linear layer y = x·wᵀ + b on the extended reals, entry by entry: for a row n of x and a row o of w,
  y[n, o] = (Σ_k x[n, k] · w[o, k]) + b[o], the contraction running over all 4096 columns.

  The one law a K-tiled evaluation needs: the 4096 columns are four consecutive runs of 1024, column
  1024·s + l being entry l of run s, so the full contraction is the sum over the four runs of the partial
  contractions. Only commutativity and associativity of addition are used, which hold on the extended reals
  with no finiteness assumption, so infinite entries need no separate treatment.
-/
import Idealize.ShloMosaic.PureOps.Ideal
import Idealize.ShloMosaic.Lib.ValueIdx
import proofs.«162137_j9990093931082_2_alg».proof.Proof.LibBlockSums

noncomputable section

namespace Cert.Linear

open Idealize.ShloMosaic Idealize.ShloMosaic.ValueIdx

/-- The activations x : [8192, 4096], the weights w : [4096, 4096] (one row per output feature), the bias
    b : [4096], and the result y : [8192, 4096], as index sets. -/
abbrev SX : Shape := ⟨2, ![8192, 4096]⟩
abbrev SW : Shape := ⟨2, ![4096, 4096]⟩
abbrev SB : Shape := ⟨1, ![4096]⟩

/-- Entry (n, o) of x·wᵀ + b. -/
def linear (x : SX.Idx → EReal) (w : SW.Idx → EReal) (b : SB.Idx → EReal) : SX.Idx → EReal :=
  fun i => (∑ k : Fin 4096, x (ix2 (i 0) k) * w (ix2 (i 1) k)) + b (ix1 (i 1))

/-- Column 1024·s + l of the contraction axis: entry l of the s-th run of 1024 columns. -/
def col (s : Fin 4) (l : Fin 1024) : Fin 4096 := ⟨s.val * 1024 + l.val, by have := s.isLt; have := l.isLt; omega⟩

theorem col_val (s : Fin 4) (l : Fin 1024) : (col s l).val = s.val * 1024 + l.val := rfl

/-- Row 2048·i + p of the activations, and of the result: row p of the i-th band of 2048 rows. -/
def row (i : Fin 4) (p : Fin 2048) : Fin 8192 := ⟨i.val * 2048 + p.val, by have := i.isLt; have := p.isLt; omega⟩

theorem row_val (i : Fin 4) (p : Fin 2048) : (row i p).val = i.val * 2048 + p.val := rfl

/-- A sum over the 4096 columns is the sum over the four runs of the sums inside each run. -/
theorem sum_cols {M : Type*} [AddCommMonoid M] (f : Fin 4096 → M) :
    ∑ k, f k = ∑ s : Fin 4, ∑ l : Fin 1024, f (col s l) :=
  BlockSums.sum_blocks (m := 4) (n := 1024) rfl col col_val f

end Cert.Linear

end
-- ==== Proof.RefSpec.lean ====
/-
  The reference computes the linear layer, entry by entry.

  The reference is one contraction of the activations with the weights along both second axes, the bias
  broadcast first to a row and then down the 8192 rows, and a sum. At entry (n, o) the contraction is
  Σ_k x[n, k] · w[o, k] over all 4096 columns, and the broadcast bias is b[o]; so the result is the
  specification's y[n, o] with no rearrangement at all.
-/
import proofs.«162137_j9990093931082_2_alg».proof.Proof.Gen.ReferenceIdeal.Read
import proofs.«162137_j9990093931082_2_alg».proof.Proof.Spec

noncomputable section

namespace Cert.ReferenceIdeal.RefValue

open Idealize.ShloMosaic Idealize.ShloMosaic.ValueIdx
open Cert.ReferenceIdeal Cert.ReferenceIdeal.Gen

/-- The reference's result, as a function of the three arguments, is x·wᵀ + b. -/
theorem result_eq (x : S8192x4096.Idx → EReal) (w : S4096x4096.Idx → EReal) (b : S4096.Idx → EReal) :
    Read.val_main_v3 (F := Ideal) x w b = Linear.linear x w b := by
  funext i
  have el : ∀ k : Fin 4096, Read.lidx_main_v0 i k = ix2 (i 0) k := fun k => funext fun a => Fin.ext (by
    match a with
    | ⟨0, _⟩ => rfl
    | ⟨1, _⟩ => rfl)
  have er : ∀ k : Fin 4096, Read.ridx_main_v0 i k = ix2 (i 1) k := fun k => funext fun a => Fin.ext (by
    match a with
    | ⟨0, _⟩ => rfl
    | ⟨1, _⟩ => rfl)
  have eb : Read.idx_main_v1 (Read.idx_main_v2 i) = ix1 (i 1) := funext fun a => Fin.ext (by
    match a with
    | ⟨0, _⟩ => rfl)
  rw [Read.val_main_v3_apply, Read.val_main_v0_apply, Read.val_main_v2_apply, Read.val_main_v1_apply]
  simp only [el, er, eb, Ideal.addf_def]
  rfl

end Cert.ReferenceIdeal.RefValue

end
-- ==== Proof.Pieces.lean ====
/-
  What one grid step leaves behind, as arithmetic on whole blocks.

  The body keeps a running [2048, 1024] accumulator between the steps of the contraction axis. Writing
  step(x, w, a) = a + x·wᵀ for the accumulator update on one pair of operand blocks, zero for the all-zero
  block, and addBias(a, b) = a + (b broadcast down the rows):

    * at the first contraction step the accumulator is reset and then updated:   step(x, w, zero);
    * at every later contraction step it is updated from what the step before left: step(x, w, a);
    * at the last contraction step the output block is the updated accumulator plus the bias:
      addBias(step(x, w, a), b), the accumulator itself again being step(x, w, a).

  Each statement below says that the stores the body performs in one of its three control cases, read back
  through the whole buffer they cover, are exactly that term. Nothing here depends on how floats are
  interpreted.
-/
import proofs.«162137_j9990093931082_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

/-- Every access of the body starts at the origin of its buffer. -/
theorem hz : (![0, 0] : Fin 2 → Nat) = fun _ => 0 := funext fun a => by fin_cases a <;> rfl

/-- A middle contraction step: the accumulator holding `xs` ends at step(x0, x1, xs). -/
theorem acc_B (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole) (hc0 : ¬cond0_0 i) (hc1 : ¬cond0_1 i)
    (x0 : Vec F S2048x1024 .bf16) (x1 : Vec F S1024x1024 .bf16) (x2 : Vec F S1x1024 .f32) (xs : Vec F S2048x1024 .f32) :
    sout0_B_0 c i a3 h3 a4 h4 a5 h5 a6 h6 a7 h7 hc0 hc1 x0 x1 x2 xs = k0_pay2 x0 x1 xs := by
  unfold sout0_B_0
  rw [View.read_writes_eq_canon _ _ _ (scover0_B_0 c i a3 h3 a4 h4 a5 h5 a6 h6 a7 h7 hc0 hc1 x0 x1 x2 xs)]
  unfold kernelRun0_B
  dsimp only
  rw [View.canon_unit_zero hz]
  simp only [View.readAt_eq_ld, h3.read_unread, h4.read_unread, h7.read_unread, View.ld_unit_zero (S := S2048x1024) hz,
    View.ld_unit_zero (S := S1024x1024) hz]

/-- The first contraction step: whatever the accumulator held, it is zeroed, read back, and ends at
    step(x0, x1, zero). -/
theorem acc_A (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole) (hc0 : cond0_0 i) (hc1 : ¬cond0_1 i)
    (x0 : Vec F S2048x1024 .bf16) (x1 : Vec F S1024x1024 .bf16) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S2048x1024) hz, View.readCov_unit_zero (S := S2048x1024) _ hz]
  simp only [View.readAt_eq_ld, h3.read_unread, h4.read_unread, View.ld_unit_zero (S := S2048x1024) hz,
    View.ld_unit_zero (S := S1024x1024) hz]

/-- The last contraction step, the accumulator: updated exactly as at a middle step. -/
theorem acc_C (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole) (hc0 : ¬cond0_0 i) (hc1 : cond0_1 i)
    (x0 : Vec F S2048x1024 .bf16) (x1 : Vec F S1024x1024 .bf16) (x2 : Vec F S1x1024 .f32) (xs : Vec F S2048x1024 .f32) :
    sout0_C_0 c i a3 h3 a4 h4 a5 h5 a6 h6 a7 h7 hc0 hc1 x0 x1 x2 xs = k0_pay2 x0 x1 xs := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero hz]
  simp only [View.readAt_eq_ld, h3.read_unread, h4.read_unread, h7.read_unread, View.ld_unit_zero (S := S2048x1024) hz,
    View.ld_unit_zero (S := S1024x1024) hz]

/-- The last contraction step, the output block: the updated accumulator read back, plus the bias row. -/
theorem out_C (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole) (hc0 : ¬cond0_0 i) (hc1 : cond0_1 i)
    (x0 : Vec F S2048x1024 .bf16) (x1 : Vec F S1024x1024 .bf16) (x2 : Vec F S1x1024 .f32) (xs : Vec F S2048x1024 .f32) :
    out0_C_3 c i a3 h3 a4 h4 a5 h5 a6 h6 a7 h7 hc0 hc1 x0 x1 x2 xs = k0_pay3 (k0_pay2 x0 x1 xs) x2 := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero hz]
  simp only [View.readAt_eq_ld, h3.read_unread, h4.read_unread, h5.read_unread, h7.read_unread, View.ld_unit_zero (S := S2048x1024) hz,
    View.ld_unit_zero (S := S1024x1024) hz, View.ld_unit_zero (S := S1x1024) hz, View.readCov_unit_zero (S := S2048x1024) _ hz]

end Cert.KernelIdeal.Pieces

end
-- ==== Proof.Payload.lean ====
/-
  The three block operations of one grid step, entry by entry on the extended reals.

  With floats read as extended reals and every operation exact:
    * the reset block is 0 everywhere;
    * the accumulator update on an activation block x : [2048, 1024] and a weight block w : [1024, 1024] is, at
      entry (p, q),  a[p, q] + Σ_l x[p, l] · w[q, l]  — both operands are contracted along their second axis, so a
      weight block is used row by row, which is the product with its transpose; the product accumulates into a
      zero block, and 0 + s = s;
    * the final addition of the bias block b : [1, 1024] is, at entry (p, q),  a[p, q] + b[0, q]: the bias row
      is repeated down the 2048 rows.
-/
import proofs.«162137_j9990093931082_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.ValueIdx
open Cert.KernelIdeal Cert.KernelIdeal.Gen

/-- The block product's axes: output (p, q) contracts axis 1 of the left block with axis 1 of the right block. -/
abbrev dotBlk : DotDims S2048x1024 S1024x1024 S2048x1024 := dot_S2048x1024_S1024x1024_S2048x1024_1_1_0_0_n_n

/-- The left operand of the product at output (p, q) and contraction position k is row p of the activation block … -/
theorem lhs_row (j : S2048x1024.Idx) (k : dotBlk.contr.Idx) : (dotBlk.lhsIdx j k 0).val = (j 0).val := by
  unfold DotDims.lhsIdx
  rw [dif_neg (show ¬(0 : Fin S2048x1024.rank) ∈ dotBlk.lhsBatch by decide), dif_pos (show (0 : Fin S2048x1024.rank) ∈ dotBlk.lhsNonContracting by decide)]
  rfl
/-- … at column k; -/
theorem lhs_col (j : S2048x1024.Idx) (k : dotBlk.contr.Idx) : (dotBlk.lhsIdx j k 1).val = (k ⟨0, by decide⟩).val :=
  dotBlk.lhsIdx_val_of_single rfl j k
/-- the right operand is row q of the weight block … -/
theorem rhs_row (j : S2048x1024.Idx) (k : dotBlk.contr.Idx) : (dotBlk.rhsIdx j k 0).val = (j 1).val := by
  unfold DotDims.rhsIdx
  rw [dif_neg (show ¬(0 : Fin S1024x1024.rank) ∈ dotBlk.rhsBatch by decide), dif_pos (show (0 : Fin S1024x1024.rank) ∈ dotBlk.rhsNonContracting by decide)]
  rfl
/-- … at column k. -/
theorem rhs_col (j : S2048x1024.Idx) (k : dotBlk.contr.Idx) : (dotBlk.rhsIdx j k 1).val = (k ⟨0, by decide⟩).val :=
  dotBlk.rhsIdx_val_of_single rfl j k

/-- The block product into a zero block, at entry (p, q): Σ_l x[p, l] · w[q, l]. -/
theorem product_apply (x : FVec Ideal S2048x1024 .bf16) (w : FVec Ideal S1024x1024 .bf16) (j : S2048x1024.Idx) :
    matmul dotBlk none x w (constant (F := Ideal) S2048x1024 .f32 0x00000000#32) j
      = ∑ l : Fin 1024, x (ix2 (j 0) l) * w (ix2 (j 1) l) := by
  simp only [matmul]
  rw [Ideal.matmul_constant_zero_apply, ← Equiv.sum_comp (contrEquiv1 dotBlk 1024 rfl rfl).symm]
  refine Finset.sum_congr rfl fun l _ => ?_
  have hl := contrEquiv1_symm_val dotBlk 1024 rfl rfl l
  have el : dotBlk.lhsIdx j ((contrEquiv1 dotBlk 1024 rfl rfl).symm l) = ix2 (j 0) l := funext fun a => Fin.ext (by
    match a with
    | ⟨0, _⟩ => exact lhs_row _ _
    | ⟨1, _⟩ => exact (lhs_col _ _).trans hl)
  have er : dotBlk.rhsIdx j ((contrEquiv1 dotBlk 1024 rfl rfl).symm l) = ix2 (j 1) l := funext fun a => Fin.ext (by
    match a with
    | ⟨0, _⟩ => exact rhs_row _ _
    | ⟨1, _⟩ => exact (rhs_col _ _).trans hl)
  rw [el, er]
  rfl

/-- The reset block is 0 at every entry. -/
theorem zero_apply (j : S2048x1024.Idx) : k0_pay1 (F := Ideal) j = 0 := by
  unfold k0_pay1
  simp only [shapeCast_self]
  exact Ideal.ofBits_zero_f32

/-- The accumulator update at entry j = (p, q): a[p, q] + Σ_l x[p, l] · w[q, l]. -/
theorem step_apply (x : FVec Ideal S2048x1024 .bf16) (w : FVec Ideal S1024x1024 .bf16) (a : FVec Ideal S2048x1024 .f32)
    (j : S2048x1024.Idx) :
    k0_pay2 (F := Ideal) x w a j = a j + ∑ l : Fin 1024, x (ix2 (j 0) l) * w (ix2 (j 1) l) := by
  unfold k0_pay2
  simp only [shapeCast_self]
  exact congrArg (a j + ·) (product_apply x w j)

/-- The bias addition at entry j = (p, q): a[p, q] + b[0, q]. -/
theorem bias_apply (a : FVec Ideal S2048x1024 .f32) (b : FVec Ideal S1x1024 .f32) (j : S2048x1024.Idx) :
    k0_pay3 (F := Ideal) a b j = a j + b (ix2 (0 : Fin 1) (j 1)) := by
  unfold k0_pay3
  simp only [shapeCast_self]
  refine congrArg (a j + ·) ?_
  exact broadcastTo_apply b broadcasts_S1x1024_S2048x1024 j (ix2 (0 : Fin 1) (j 1)) (fun d => by
    match d with
    | ⟨0, _⟩ => show (0 : Nat) = if (1 : Nat) = 1 then 0 else _; rw [if_pos rfl]
    | ⟨1, _⟩ => show (j 1).val = if (1024 : Nat) = 1 then 0 else (j 1).val; rw [if_neg (by decide)])

end Cert.KernelIdeal.Payload

end
-- ==== Proof.Blocks.lean ====
/-
  Which entries of the arguments each grid step sees.

  The 64 grid steps are numbered t = 16·i + 4·j + s: i picks a band of 2048 rows of the activations (and of the
  result), j a tile of 1024 output features (rows of the weights, columns of the result), and s — the fastest
  coordinate — a run of 1024 columns of the contraction axis. At step t the body is handed

    * the activation block  x[2048·i + p, 1024·s + l],   p < 2048, l < 1024;
    * the weight block      w[1024·j + q, 1024·s + l],   q < 1024, l < 1024;
    * the bias block        b[1024·j + q],               q < 1024, presented as a single row.

  Before the grid runs, the activations and weights are narrowed to a shorter float format and the bias is
  reshaped from [4096] to [1, 4096]. On the extended reals a change of format is the identity and the reshape
  only renames index n as (0, n), so the blocks are read straight off the arguments.
-/
import proofs.«162137_j9990093931082_2_alg».proof.Proof.Gen.KernelIdeal.Frame
import proofs.«162137_j9990093931082_2_alg».proof.Proof.Spec
import Idealize.ShloMosaic.Lib.Pipeline.Value
import Idealize.ShloMosaic.Lib.ValueIdx
import Idealize.ShloMosaic.Lib.StableHlo.Run

noncomputable section

namespace Cert.KernelIdeal.Blocks

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-! ## The arrays the grid reads from -/

/-- The narrowed activations are the activations. -/
theorem V_x (c : Dev nD) : (V m c main_v0 : S8192x4096.Idx → EReal) = m ((c : Thread nD τ).loc main_arg0) := by
  dsimp only [Gen.V, Gen.hostOps0]; after_results; rfl

/-- The narrowed weights are the weights. -/
theorem V_w (c : Dev nD) : (V m c main_v1 : S4096x4096.Idx → EReal) = m ((c : Thread nD τ).loc main_arg1) := by
  dsimp only [Gen.V, Gen.hostOps0]; after_results; rfl

/-- The bias as a one-row matrix is the reshape of the bias. -/
theorem V_b (c : Dev nD) : (V m c main_v2 : S1x4096.Idx → EReal)
    = shapeCast S1x4096 (m ((c : Thread nD τ).loc main_arg2)) shapeCasts_S4096_S1x4096 := by
  dsimp only [Gen.V, Gen.hostOps0]; after_results; rfl

/-! ## The grid's coordinates -/

/-- There are 64 steps. -/
theorem lt64 (t : Fin cfg0.N) : t.val < 64 := lt_of_lt_of_eq t.isLt (show cfg0.N = 64 from N_0)

/-- Step t = 16·i + 4·j + s works on row band i … -/
def band (t : Fin cfg0.N) : Fin 4 := ⟨t.val / 16, by have := lt64 t; omega⟩
/-- … feature tile j … -/
def tile (t : Fin cfg0.N) : Fin 4 := ⟨t.val / 4 % 4, Nat.mod_lt _ (by decide)⟩
/-- … and contraction run s. -/
def run (t : Fin cfg0.N) : Fin 4 := ⟨t.val % 4, Nat.mod_lt _ (by decide)⟩

/-- Which block of its array each operand takes at step t, in those coordinates: the activations block (i, s),
    the weights block (j, s), the bias block (0, j), the result block (i, j). -/
theorem idx_facts : ∀ t : Fin cfg0.N,
    win0_0.index t 0 = t.val / 16 ∧ win0_0.index t 1 = t.val % 4
    ∧ win0_1.index t 0 = t.val / 4 % 4 ∧ win0_1.index t 1 = t.val % 4
    ∧ win0_2.index t 0 = 0 ∧ win0_2.index t 1 = t.val / 4 % 4
    ∧ win0_3.index t 0 = t.val / 16 ∧ win0_3.index t 1 = t.val / 4 % 4 :=
  (by decide +kernel : ∀ t : Fin grid0.N,
    win0_0.index t 0 = t.val / 16 ∧ win0_0.index t 1 = t.val % 4
    ∧ win0_1.index t 0 = t.val / 4 % 4 ∧ win0_1.index t 1 = t.val % 4
    ∧ win0_2.index t 0 = 0 ∧ win0_2.index t 1 = t.val / 4 % 4
    ∧ win0_3.index t 0 = t.val / 16 ∧ win0_3.index t 1 = t.val / 4 % 4)

/-! ## The blocks -/

/-- Entry (p, l) of the activation block at step t is x[2048·i + p, 1024·s + l]. -/
theorem x_block (c : Dev nD) (t : Fin cfg0.N) (p : Fin 2048) (l : Fin 1024) :
    (iblk m c 0 t : Vec Ideal S2048x1024 .bf16) (ix2 p l)
      = m ((c : Thread nD τ).loc main_arg0) (ix2 (Linear.row (band t) p) (Linear.col (run t) l)) := by
  unfold iblk
  rw [View.read_apply]
  show V m c main_v0 _ = _
  refine (congrFun (V_x m c) _).trans ?_
  refine congrArg (m ((c : Thread nD τ).loc main_arg0)) (funext fun a => Fin.ext ?_)
  have hi := idx_facts t
  match a with
  | ⟨0, _⟩ => show win0_0.index t 0 * 2048 + 1 * p.val = t.val / 16 * 2048 + p.val; rw [hi.1]; omega
  | ⟨1, _⟩ => show win0_0.index t 1 * 1024 + 1 * l.val = t.val % 4 * 1024 + l.val; rw [hi.2.1]; omega

/-- Entry (q, l) of the weight block at step t is w[1024·j + q, 1024·s + l]. -/
theorem w_block (c : Dev nD) (t : Fin cfg0.N) (q : Fin 1024) (l : Fin 1024) :
    (iblk m c 1 t : Vec Ideal S1024x1024 .bf16) (ix2 q l)
      = m ((c : Thread nD τ).loc main_arg1) (ix2 (Linear.col (tile t) q) (Linear.col (run t) l)) := by
  unfold iblk
  rw [View.read_apply]
  show V m c main_v1 _ = _
  refine (congrFun (V_w m c) _).trans ?_
  refine congrArg (m ((c : Thread nD τ).loc main_arg1)) (funext fun a => Fin.ext ?_)
  have hi := idx_facts t
  match a with
  | ⟨0, _⟩ => show win0_1.index t 0 * 1024 + 1 * q.val = t.val / 4 % 4 * 1024 + q.val; rw [hi.2.2.1]; omega
  | ⟨1, _⟩ => show win0_1.index t 1 * 1024 + 1 * l.val = t.val % 4 * 1024 + l.val; rw [hi.2.2.2.1]; omega

/-- Entry (0, q) of the bias block at step t is b[1024·j + q]. -/
theorem b_block (c : Dev nD) (t : Fin cfg0.N) (q : Fin 1024) :
    (iblk m c 2 t : Vec Ideal S1x1024 .f32) (ix2 (0 : Fin 1) q)
      = m ((c : Thread nD τ).loc main_arg2) (ix1 (Linear.col (tile t) q)) := by
  unfold iblk
  rw [View.read_apply]
  show V m c main_v2 _ = _
  refine (congrFun (V_b m c) _).trans ?_
  refine (shapeCast_addUnit_apply ![4096] (m ((c : Thread nD τ).loc main_arg2)) shapeCasts_S4096_S1x4096 _).trans ?_
  refine congrArg (m ((c : Thread nD τ).loc main_arg2)) (funext fun a => Fin.ext ?_)
  have hi := idx_facts t
  match a with
  | ⟨0, _⟩ => show win0_2.index t 1 * 1024 + 1 * q.val = t.val / 4 % 4 * 1024 + q.val; rw [hi.2.2.2.2.2.1]; omega

end Cert.KernelIdeal.Blocks

end
-- ==== Proof.Accumulate.lean ====
/-
  The accumulator across the contraction axis, and the block a last contraction step writes.

  Fix a row band i and a feature tile j. The four steps t = 16·i + 4·j + s, s = 0, 1, 2, 3, visit the four runs of
  1024 contraction columns in order, and step s adds to the running [2048, 1024] accumulator the partial
  contraction
        P_s[p, q] = Σ_l x[2048·i + p, 1024·s + l] · w[1024·j + q, 1024·s + l].
  The first of the four steps starts from the zero block. So after step s the accumulator is
        0 + (P_0 + … + P_s)[p, q],
  a statement about a fold of length at most four, proved for a symbolic step by unrolling the fold — no step
  of the 64 is enumerated. At s = 3 the output block is this accumulator plus the bias row b[1024·j + q].
-/
import proofs.«162137_j9990093931082_2_alg».proof.Proof.Gen.KernelIdeal.Value
import proofs.«162137_j9990093931082_2_alg».proof.Proof.Pieces
import proofs.«162137_j9990093931082_2_alg».proof.Proof.Payload
import proofs.«162137_j9990093931082_2_alg».proof.Proof.Blocks

noncomputable section

namespace Cert.KernelIdeal.Accumulate

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The three arguments, as arrays of extended reals. -/
def argX (c : Dev nD) : S8192x4096.Idx → EReal := m ((c : Thread nD τ).loc main_arg0)
def argW (c : Dev nD) : S4096x4096.Idx → EReal := m ((c : Thread nD τ).loc main_arg1)
def argB (c : Dev nD) : S4096.Idx → EReal := m ((c : Thread nD τ).loc main_arg2)

/-- Step t's activation block, weight block and bias block, as matrices of extended reals. -/
def xblk (c : Dev nD) (t : Fin cfg0.N) : S2048x1024.Idx → EReal := iblk m c 0 t
def wblk (c : Dev nD) (t : Fin cfg0.N) : S1024x1024.Idx → EReal := iblk m c 1 t
def bblk (c : Dev nD) (t : Fin cfg0.N) : S1x1024.Idx → EReal := iblk m c 2 t

/-- The partial contraction step n adds at entry y = (p, q) of the accumulator: Σ_l xblk[p, l] · wblk[q, l] over the
    step's own activation and weight blocks (and, so that it is a function of every natural number, 0 past the
    last step). -/
def addend (c : Dev nD) (n : ℕ) (y : S2048x1024.Idx) : EReal :=
  if h : n < cfg0.N then ∑ l : Fin 1024, xblk m c ⟨n, h⟩ (ix2 (y 0) l) * wblk m c ⟨n, h⟩ (ix2 (y 1) l)
  else 0

/-- At a first contraction step the accumulator ends at 0 + (the step's partial contraction), whatever it held. -/
theorem reset_apply (c : Dev nD) (n : ℕ) (hb : n < cfg0.N) (h0 : n % 4 = 0) (acc : Vec Ideal S2048x1024 .f32)
    (y : S2048x1024.Idx) : Value.scAt0_0 m c n hb acc y = 0 + addend m c n y := by
  have h1 : ¬n % 4 = 3 := by omega
  unfold Value.scAt0_0
  rw [dif_pos h0, dif_neg h1]
  refine (congrFun (Pieces.acc_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))) y).trans ?_
  refine (Payload.step_apply (iblk m c 0 (⟨n, hb⟩ : Fin cfg0.N)) (iblk m c 1 (⟨n, hb⟩ : Fin cfg0.N)) (k0_pay1 (F := Ideal)) y).trans ?_
  rw [Payload.zero_apply]
  unfold addend
  rw [dif_pos hb]
  rfl

/-- At every other contraction step it ends at (what it held) + (the step's partial contraction). -/
theorem step_apply (c : Dev nD) (n : ℕ) (hb : n < cfg0.N) (h0 : ¬n % 4 = 0) (acc : Vec Ideal S2048x1024 .f32)
    (y : S2048x1024.Idx) : Value.scAt0_0 m c n hb acc y = acc y + addend m c n y := by
  unfold Value.scAt0_0
  rw [dif_neg h0]
  by_cases h1 : n % 4 = 3
  · rw [dif_pos h1]
    refine (congrFun (Pieces.acc_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc) y).trans ?_
    refine (Payload.step_apply (iblk m c 0 (⟨n, hb⟩ : Fin cfg0.N)) (iblk m c 1 (⟨n, hb⟩ : Fin cfg0.N)) acc y).trans ?_
    unfold addend
    rw [dif_pos hb]
    rfl
  · rw [dif_neg h1]
    refine (congrFun (Pieces.acc_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc) y).trans ?_
    refine (Payload.step_apply (iblk m c 0 (⟨n, hb⟩ : Fin cfg0.N)) (iblk m c 1 (⟨n, hb⟩ : Fin cfg0.N)) acc y).trans ?_
    unfold addend
    rw [dif_pos hb]
    rfl

/-- THE RUNNING SUM. After step t the accumulator holds, at entry y, 0 plus the partial contractions of the steps
    from the first step of t's group of four up to t. -/
theorem acc_eq (c : Dev nD) (t : Fin cfg0.N) (y : S2048x1024.Idx) :
    (outsAt0 m c t.val t.isLt).2 y
      = 0 + ∑ s ∈ Finset.range (t.val % 4 + 1), addend m c (4 * (t.val / 4) + s) y := by
  rw [Value.soutsAt0_0_eq]
  exact Pipeline.accAt_add_apply _ _ (fun _ => (0 : EReal)) (addend m c) (4 * (t.val / 4)) 3
    (fun h i => reset_apply m c _ h (by omega) _ i)
    (fun n h acc i h1 h2 => step_apply m c n h (by omega) acc i)
    (t.val % 4) (by omega) _ y

/-- THE OUTPUT BLOCK of a last contraction step: the accumulator that step leaves, plus the bias row. -/
theorem out_eq (c : Dev nD) (t : Fin cfg0.N) (h3 : t.val % 4 = 3) (y : S2048x1024.Idx) :
    (outsAt0 m c t.val t.isLt).1 y
      = (outsAt0 m c t.val t.isLt).2 y + bblk m c t (ix2 (0 : Fin 1) (y 1)) := by
  have h0 : ¬t.val % 4 = 0 := by omega
  rw [outsAt0_C m c t h0 h3]
  dsimp only
  refine (congrFun (Pieces.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) (outsAt0 m c (t.val - 1) (Nat.lt_of_le_of_lt (Nat.sub_le _ _) t.isLt)).2) y).trans ?_
  refine (Payload.bias_apply (k0_pay2 (F := Ideal) (iblk m c 0 t) (iblk m c 1 t) (outsAt0 m c (t.val - 1) (Nat.lt_of_le_of_lt (Nat.sub_le _ _) t.isLt)).2) (iblk m c 2 t) y).trans ?_
  exact congrArg (· + bblk m c t (ix2 (0 : Fin 1) (y 1))) (congrFun (Pieces.acc_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) (outsAt0 m c (t.val - 1) (Nat.lt_of_le_of_lt (Nat.sub_le _ _) t.isLt)).2) y).symm

/-- The partial contraction of the s-th step of t's group, in the arguments' own coordinates: the step works on t's
    row band and feature tile and on contraction run s. -/
theorem addend_at (c : Dev nD) (t : Fin cfg0.N) (s : Fin 4) (y : S2048x1024.Idx) :
    addend m c (4 * (t.val / 4) + s.val) y
      = ∑ l : Fin 1024, argX m c (ix2 (Linear.row (Blocks.band t) (y 0)) (Linear.col s l))
          * argW m c (ix2 (Linear.col (Blocks.tile t) (y 1)) (Linear.col s l)) := by
  have h64 := Blocks.lt64 t
  have hs := s.isLt
  have hn : 4 * (t.val / 4) + s.val < cfg0.N := lt_of_lt_of_eq (by omega) (show (64 : ℕ) = cfg0.N from N_0.symm)
  unfold addend
  rw [dif_pos hn]
  have eb : Blocks.band ⟨4 * (t.val / 4) + s.val, hn⟩ = Blocks.band t :=
    Fin.ext (by show (4 * (t.val / 4) + s.val) / 16 = t.val / 16; omega)
  have et : Blocks.tile ⟨4 * (t.val / 4) + s.val, hn⟩ = Blocks.tile t :=
    Fin.ext (by show (4 * (t.val / 4) + s.val) / 4 % 4 = t.val / 4 % 4; omega)
  have er : Blocks.run ⟨4 * (t.val / 4) + s.val, hn⟩ = s :=
    Fin.ext (by show (4 * (t.val / 4) + s.val) % 4 = s.val; omega)
  refine Finset.sum_congr rfl fun l _ => ?_
  refine (congrArg₂ (fun a b : EReal => a * b) (Blocks.x_block m c ⟨4 * (t.val / 4) + s.val, hn⟩ (y 0) l)
    (Blocks.w_block m c ⟨4 * (t.val / 4) + s.val, hn⟩ (y 1) l)).trans ?_
  rw [eb, et, er]
  rfl

end Cert.KernelIdeal.Accumulate

end
-- ==== Proof.Final.lean ====
/-
  From blocks to the whole result.

  A step with contraction coordinate s = 3 — step t = 16·i + 4·j + 3 — is the only kind that writes its output
  block back, and it writes block (i, j) of the result: rows 2048·i … 2048·i + 2047, columns 1024·j … 1024·j + 1023.
  By then the accumulator is 0 + (P_0 + P_1 + P_2 + P_3), the four partial contractions over the four runs of
  1024 columns, and the block written is that plus the bias. Regrouping the 4096 columns into the four runs turns
  Σ_s Σ_l into the full contraction Σ_k, so the block written is block (i, j) of x·wᵀ + b.

  Every entry (n, o) of the result lies in exactly such a block — that of the step with i = n / 2048 and
  j = o / 1024 — so after the grid has run the whole array is x·wᵀ + b.
-/
import proofs.«162137_j9990093931082_2_alg».proof.Proof.Accumulate

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Accumulate

variable (m : (ℓ : Loc nD τ sig) → Buf (Elt Ideal) ℓ) (ρ : Dev nD → PrngReg)

/-- What the result array ends holding: x·wᵀ + b of the three arguments. -/
def result (c : Dev nD) : S8192x4096.Idx → EReal := Linear.linear (argX m c) (argW m c) (argB m c)

/-- Entry y = (p, q) of the block a last contraction step t writes is entry (2048·i + p, 1024·j + q) of x·wᵀ + b. -/
theorem block_entry (c : Dev nD) (t : Fin cfg0.N) (h3 : t.val % 4 = 3) (y : S2048x1024.Idx) :
    (outsAt0 m c t.val t.isLt).1 y
      = result m c (ix2 (Linear.row (Blocks.band t) (y 0)) (Linear.col (Blocks.tile t) (y 1))) := by
  rw [out_eq m c t h3 y, acc_eq m c t y, show t.val % 4 + 1 = 4 from by omega, zero_add,
    ← Fin.sum_univ_eq_sum_range (fun s => addend m c (4 * (t.val / 4) + s) y) 4]
  simp only [addend_at m c t]
  refine (congrArg (_ + ·) (Blocks.b_block m c t (y 1))).trans ?_
  unfold result Linear.linear
  rw [Linear.sum_cols]
  rfl

/-- WHAT A WRITING STEP WRITES BACK is its block of x·wᵀ + b. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  rw [Value.flushed3]
  funext y
  rw [View.read_apply]
  show (outsAt0 m c t.val t.isLt).1 y = result m c (((cfg0.win 3).blk t).view.emb y)
  rw [block_entry m c t h3 y]
  refine congrArg (result m c) (funext fun a => Fin.ext ?_)
  have hi := Blocks.idx_facts t
  match a with
  | ⟨0, _⟩ => show t.val / 16 * 2048 + (y 0).val = win0_3.index t 0 * 2048 + 1 * (y 0).val; rw [hi.2.2.2.2.2.2.1]; omega
  | ⟨1, _⟩ => show t.val / 4 % 4 * 1024 + (y 1).val = win0_3.index t 1 * 1024 + 1 * (y 1).val; rw [hi.2.2.2.2.2.2.2]; omega

/-- An entry of the result is in step t's block iff each coordinate is in the block's range on its axis. -/
theorem mem_blk (t : Fin cfg0.N) (i : S8192x4096.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v3).slice (win0_3.rect t)).set ↔ _
  rw [View.set_slice_whole, Rect.mem_set_unit]
  exact Iff.rfl

/-- Every entry (n, o) is in the block of the writing step with row band n / 2048 and feature tile o / 1024. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ : ∃ t : Fin cfg0.N, t.val = 16 * ((i 0).val / 2048) + 4 * ((i 1).val / 1024) + 3 :=
    ⟨⟨16 * ((i 0).val / 2048) + 4 * ((i 1).val / 1024) + 3, lt_of_lt_of_eq (by omega) (show (64 : ℕ) = cfg0.N from N_0.symm)⟩, rfl⟩
  refine ⟨t, (flush0_3 t).mpr (by omega), ?_⟩
  rw [mem_blk]
  have hx := Blocks.idx_facts t
  intro a
  match a with
  | ⟨0, _⟩ =>
    show win0_3.index t 0 * 2048 ≤ (i 0).val ∧ (i 0).val < win0_3.index t 0 * 2048 + 2048
    rw [hx.2.2.2.2.2.2.1]; omega
  | ⟨1, _⟩ =>
    show win0_3.index t 1 * 1024 ≤ (i 1).val ∧ (i 1).val < win0_3.index t 1 * 1024 + 1024
    rw [hx.2.2.2.2.2.2.2]; omega

/-- THE ARRAY after the grid has run is x·wᵀ + b. -/
theorem final (c : Dev nD) : (dats m 0 c).arrAt 3 cfg0.N = result m c :=
  (dats m 0 c).arrAt_eq_of_cover 3 (result m c) (flushed_eq m c) cover

/-- The run, read: every execution ends with the result array at x·wᵀ + b of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Final

end
-- ==== Proof.lean ====
/-
  A tiled linear layer equals the plain one, over the extended reals.

  Both programs take activations x : [8192, 4096], weights w : [4096, 4096] (one row per output feature) and a bias
  b : [4096], and produce y : [8192, 4096]. The plain program is y = x·wᵀ + b: one contraction over the 4096
  columns, then the bias added to every row. The tiled program works on a 4 × 4 × 4 grid: for each band of 2048
  rows of x and each tile of 1024 rows of w it walks the contraction axis in four runs of 1024 columns, keeps a
  running [2048, 1024] sum that starts at zero, adds one partial contraction per run, and after the fourth run
  adds the bias and writes the block out. Before the grid it narrows x and w to a shorter float format, which on
  the extended reals changes nothing.

  Entry (n, o) of the tiled result is therefore ((((0 + P_0) + P_1) + P_2) + P_3) + b[o], with
  P_s = Σ_{l < 1024} x[n, 1024·s + l] · w[o, 1024·s + l], and entry (n, o) of the plain result is
  Σ_{k < 4096} x[n, k] · w[o, k] + b[o]. The two agree because a sum over 4096 columns is the sum of its four
  consecutive runs and 0 is neutral: only commutativity and associativity of addition are used, and these hold
  on the extended reals without exception, so the finiteness of the inputs is never called upon.

  The modules: Spec (the layer entry by entry, and the regrouping of the columns; LibBlockSums the general
  regrouping of a finite sum into blocks), RefSpec (the plain program is the layer), Pieces and Payload (what one
  grid step computes, as whole blocks and entry by entry), Blocks (which entries of the arguments a step sees),
  Accumulate (the running sum across the four runs), Final (the blocks written cover the result). Each of the
  three programs terminates without fault and leaves its arguments as they were; the tiled program's idealized
  reading rewrites nothing, so it is the program's own text.
-/
import proofs.«162137_j9990093931082_2_alg».proof.Defs
import proofs.«162137_j9990093931082_2_alg».proof.Proof.Gen.Kernel
import proofs.«162137_j9990093931082_2_alg».proof.Proof.Gen.Kernel.Skeleton
import proofs.«162137_j9990093931082_2_alg».proof.Proof.Gen.Kernel.Launch
import proofs.«162137_j9990093931082_2_alg».proof.Proof.Gen.Kernel.Points
import proofs.«162137_j9990093931082_2_alg».proof.Proof.Gen.Kernel.Frame
import proofs.«162137_j9990093931082_2_alg».proof.Proof.Gen.KernelIdeal
import proofs.«162137_j9990093931082_2_alg».proof.Proof.Gen.KernelIdeal.Skeleton
import proofs.«162137_j9990093931082_2_alg».proof.Proof.Gen.KernelIdeal.Launch
import proofs.«162137_j9990093931082_2_alg».proof.Proof.Gen.KernelIdeal.Points
import proofs.«162137_j9990093931082_2_alg».proof.Proof.Gen.KernelIdeal.Frame
import proofs.«162137_j9990093931082_2_alg».proof.Proof.Gen.ReferenceIdeal
import proofs.«162137_j9990093931082_2_alg».proof.Proof.Gen.Pre_finite_inputs
import proofs.«162137_j9990093931082_2_alg».proof.Proof.Gen.KernelIdeal.Value
import proofs.«162137_j9990093931082_2_alg».proof.Proof.Gen.ReferenceIdeal.Run
import proofs.«162137_j9990093931082_2_alg».proof.Proof.Gen.ReferenceIdeal.Read
import proofs.«162137_j9990093931082_2_alg».proof.Proof.RefSpec
import proofs.«162137_j9990093931082_2_alg».proof.Proof.Final
import Idealize.ShloMosaic.Adequacy
import Idealize.ShloMosaic.Init

noncomputable section

namespace Cert.Proof

open Idealize.ShloMosaic Idealize.SL.Sem

/-- The tiled program as printed terminates without fault and leaves its arguments unchanged. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- So does the plain program: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Reading the tiled program over the extended reals rewrote none of its operations. -/
theorem preserves : Cert.preserves_Kernel_KernelIdeal := trivial

/-- From arguments that agree, the tiled program ends with x·wᵀ + b in its result array (the accumulated blocks
    cover it) and the plain program ends with x·wᵀ + b (it is that expression): the same array, entry by entry. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq, (hagree c).1, (hagree c).2.1,
    (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
